-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S512x128 : Shape := ⟨2, ![512, 128]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S2048x512 .f32) (main_arg1 : FVec F S512x128 .f32) (main_arg2 : FVec F S512x128 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S2048x512 : Shape := ⟨2, ![2048, 512]⟩
abbrev S512x128 : Shape := ⟨2, ![512, 128]⟩
abbrev S512x2048 : Shape := ⟨2, ![512, 2048]⟩
abbrev S512x2048x128 : Shape := ⟨3, ![512, 2048, 128]⟩
abbrev S128x128 : Shape := ⟨2, ![128, 128]⟩
abbrev S128x128x128 : Shape := ⟨3, ![128, 128, 128]⟩
abbrev S128x128x1 : Shape := ⟨3, ![128, 128, 1]⟩
abbrev S128x1x128 : Shape := ⟨3, ![128, 1, 128]⟩
abbrev S512x262144 : Shape := ⟨2, ![512, 262144]⟩

abbrev nBuf : Space → Nat
  | .hbm => 7
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S512x128, .f32⟩
  | .hbm, ⟨3, _⟩ => ⟨S512x2048, .f32⟩
  | .hbm, ⟨4, _⟩ => ⟨S512x128, .f32⟩
  | .hbm, ⟨5, _⟩ => ⟨S512x2048x128, .f32⟩
  | .hbm, ⟨6, _⟩ => ⟨S512x262144, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128x128, .f32⟩
  | .local _ .vmem, ⟨7, _⟩ => ⟨S128x128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x512_S512x2048_1_0 : S2048x512.Transposes [1, 0] S512x2048
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  inb_S128x128x128_S128x128x128_0_0_0 : ∀ a, (![0, 0, 0] : Fin 3 → Nat) a + S128x128x128.size a ≤ S128x128x128.size a
  h_S128x128x128 : 0 < S128x128x128.numel
  shapeCasts_S512x2048x128_S512x262144 : S512x2048x128.ShapeCasts S512x262144
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x2048.size a
  hwx0_0 : ∀ i : grid0.Coords, EltTy.bits .f32 = 32 ∨ (Rect.block (s := S512x2048) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x128.size a
  hwx0_2 : ∀ i : grid0.Coords, EltTy.bits .f32 = 32 ∨ (Rect.block (s := S512x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128x128.size a ≤ S512x2048x128.size a
  hwx0_3 : ∀ i : grid0.Coords, EltTy.bits .f32 = 32 ∨ (Rect.block (s := S512x2048x128) S128x128x128.size (cc0_transform_3 i) (hinb0_3 i)).WholeWords (EltTy.packing .f32)

variable [Facts₀]

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S512x128 : Shape := ⟨2, ![512, 128]⟩
abbrev S2048x512x1 : Shape := ⟨3, ![2048, 512, 1]⟩
abbrev S1x512x128 : Shape := ⟨3, ![1, 512, 128]⟩
abbrev S2048x512x128 : Shape := ⟨3, ![2048, 512, 128]⟩
abbrev S512x2048x128 : Shape := ⟨3, ![512, 2048, 128]⟩
abbrev S512x262144 : Shape := ⟨2, ![512, 262144]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x128, .f32⟩
  | .hbm, ⟨2, _⟩ => ⟨S512x128, .f32⟩
  | .hbm, ⟨3, _⟩ => ⟨S2048x512x1, .f32⟩
  | .hbm, ⟨4, _⟩ => ⟨S512x128, .f32⟩
  | .hbm, ⟨5, _⟩ => ⟨S1x512x128, .f32⟩
  | .hbm, ⟨6, _⟩ => ⟨S2048x512x128, .f32⟩
  | .hbm, ⟨7, _⟩ => ⟨S2048x512x128, .f32⟩
  | .hbm, ⟨8, _⟩ => ⟨S2048x512x128, .f32⟩
  | .hbm, ⟨9, _⟩ => ⟨S1x512x128, .f32⟩
  | .hbm, ⟨10, _⟩ => ⟨S2048x512x128, .f32⟩
  | .hbm, ⟨11, _⟩ => ⟨S2048x512x128, .f32⟩
  | .hbm, ⟨12, _⟩ => ⟨S512x2048x128, .f32⟩
  | .hbm, ⟨13, _⟩ => ⟨S512x262144, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  bcast_S512x128_S1x512x128_1_2 : S512x128.BroadcastsInDim S1x512x128 (![1, 2] : Fin 2 → Fin S1x512x128.rank)
  bcast_S2048x512x1_S2048x512x128_0_1_2 : S2048x512x1.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  transposes_S2048x512x128_S512x2048x128_1_0_2 : S2048x512x128.Transposes [1, 0, 2] S512x2048x128
  shapeCasts_S512x2048x128_S512x262144 : S512x2048x128.ShapeCasts S512x262144

variable [Facts₀]

class Facts : Prop extends Facts₀ where

variable [Facts]
-- ==== Proof.Spec.lean ====
/-
  The array both programs compute, before the final merge of its two trailing axes.

  For an input x of 2048 rows and 512 columns, and two tables w, β of 512 rows and 128 columns, the three-axis array
  has at (i, b, o) the entry  x[b, i] · exp(w[i, o]) + β[i, o] :  row i of the tables, scaled per batch row b by the
  transposed input.  `affine` is the scalar a · e + β, `G` the array over the program's arguments, and `K` the same array
  written over what a tiled computation is handed instead: the input already transposed (512 × 2048) and the
  exponential already taken.  `K_eq_G` says these agree: a transpose read at (i, b) is the operand at (b, i).
  Both sides perform the same product and the same sum in the same order, so no law of arithmetic is used and the
  statements hold at every interpretation of the floats.
-/
import Idealize.ShloMosaic.PureOps.Ideal
import Idealize.ShloMosaic.Lib.ValueIdx
import Idealize.ShloMosaic.Lib.Pipeline.Value

noncomputable section

namespace Cert.ExpAffine

open Idealize.ShloMosaic Idealize.ShloMosaic.ValueIdx

variable {F : FTy → Type} [FloatOps F]

/-- The scalar a · e + β. -/
def affine (a e β : F .f32) : F .f32 := FloatOps.addf (FloatOps.mulf a e) β

/-- The array over operands already laid out for tiling: xt is 512 × 2048, e and β are 512 × 128; at (i, b, o) it is
    xt[i, b] · e[i, o] + β[i, o]. -/
def K (xt : (⟨2, ![512, 2048]⟩ : Shape).Idx → F .f32) (e β : (⟨2, ![512, 128]⟩ : Shape).Idx → F .f32) :
    (⟨3, ![512, 2048, 128]⟩ : Shape).Idx → F .f32 :=
  fun j => affine (xt (ix2 (n0 := 512) (n1 := 2048) (j 0) (j 1))) (e (ix2 (n0 := 512) (n1 := 128) (j 0) (j 2)))
    (β (ix2 (n0 := 512) (n1 := 128) (j 0) (j 2)))

/-- The array over the program's arguments: at (i, b, o) it is x[b, i] · exp(w[i, o]) + β[i, o]. -/
def G (x : (⟨2, ![2048, 512]⟩ : Shape).Idx → F .f32) (w β : (⟨2, ![512, 128]⟩ : Shape).Idx → F .f32) :
    (⟨3, ![512, 2048, 128]⟩ : Shape).Idx → F .f32 :=
  fun j => affine (x (ix2 (n0 := 2048) (n1 := 512) (j 1) (j 0)))
    (FloatOps.hostUnary .exp (w (ix2 (n0 := 512) (n1 := 128) (j 0) (j 2))))
    (β (ix2 (n0 := 512) (n1 := 128) (j 0) (j 2)))

/-- The transposed input read at (i, b) is the input at (b, i). -/
theorem transpose_entry (x : (⟨2, ![2048, 512]⟩ : Shape).Idx → F .f32)
    (h : (⟨2, ![2048, 512]⟩ : Shape).Transposes [1, 0] ⟨2, ![512, 2048]⟩) (i : Fin 512) (b : Fin 2048) :
    transpose ⟨2, ![512, 2048]⟩ [1, 0] x h (ix2 i b) = x (ix2 b i) :=
  transpose_apply [1, 0] x h (ix2 i b) (ix2 b i) (fun a => match a with
    | ⟨0, _⟩ => rfl
    | ⟨1, _⟩ => rfl)

/-- With the input transposed and the exponential taken entry by entry, `K` is `G`. -/
theorem K_eq_G (x : (⟨2, ![2048, 512]⟩ : Shape).Idx → F .f32) (w β : (⟨2, ![512, 128]⟩ : Shape).Idx → F .f32)
    (h : (⟨2, ![2048, 512]⟩ : Shape).Transposes [1, 0] ⟨2, ![512, 2048]⟩) :
    K (transpose ⟨2, ![512, 2048]⟩ [1, 0] x h) (Host.exp w) β = G x w β := by
  funext j
  exact congrArg (fun a => affine a (FloatOps.hostUnary .exp (w (ix2 (n0 := 512) (n1 := 128) (j 0) (j 2))))
    (β (ix2 (n0 := 512) (n1 := 128) (j 0) (j 2)))) (transpose_entry x h (j 0) (j 1))

end Cert.ExpAffine

end
-- ==== Proof.RefEntry.lean ====
/-
  The reference, before its final reshape, is the array `G`.

  The reference repeats the input along a new last axis, the exponential of w and the table β along a new first axis,
  multiplies and adds entry by entry — an array indexed (b, i, o) — and then exchanges its first two axes.  Reading the
  result at (i, b, o) through each repetition and the exchange lands on x[b, i], exp(w[i, o]) and β[i, o].
-/
import proofs.«111726_j9053791060273_2_alg».proof.Proof.Gen.ReferenceIdeal.Read
import proofs.«111726_j9053791060273_2_alg».proof.Proof.Spec

noncomputable section

namespace Cert.ExpAffine

open Idealize.ShloMosaic Idealize.ShloMosaic.ValueIdx Cert.ReferenceIdeal Cert.ReferenceIdeal.Read

variable {F : FTy → Type} [FloatOps F]

/-- The exchanged three-axis array of the reference is `G` of its arguments. -/
theorem reference_eq_G (x : (⟨S2048x512, .f32⟩ : BufTy).Contents (Elt F)) (w β : (⟨S512x128, .f32⟩ : BufTy).Contents (Elt F)) :
    val_main_v9 (F := F) x w β = G (F := F) x w β := by
  funext j
  have ex : idx_main_v0 (idx_main_v3 (idx_main_v9 j)) = ix2 (n0 := 2048) (n1 := 512) (j 1) (j 0) :=
    funext fun a => Fin.ext (by match a with | ⟨0, _⟩ => rfl | ⟨1, _⟩ => rfl)
  have ew : idx_main_v2 (idx_main_v4 (idx_main_v9 j)) = ix2 (n0 := 512) (n1 := 128) (j 0) (j 2) :=
    funext fun a => Fin.ext (by match a with | ⟨0, _⟩ => rfl | ⟨1, _⟩ => rfl)
  have eβ : idx_main_v6 (idx_main_v7 (idx_main_v9 j)) = ix2 (n0 := 512) (n1 := 128) (j 0) (j 2) :=
    funext fun a => Fin.ext (by match a with | ⟨0, _⟩ => rfl | ⟨1, _⟩ => rfl)
  rw [val_main_v9_apply, val_main_v8_apply, val_main_v5_apply, val_main_v3_apply, val_main_v0_apply,
    val_main_v4_apply, val_main_v2_apply, val_main_v1_apply, val_main_v7_apply, val_main_v6_apply, ex, ew, eβ]
  rfl

end Cert.ExpAffine

end
-- ==== Proof.Prefix.lean ====
/-
  What the tiled computation is handed.

  Before the tiles are processed the program transposes the input (2048 × 512 becomes 512 × 2048) and takes the
  exponential of the table w entry by entry; the table β is used as given.  These are the three arrays the tiles are
  cut from.
-/
import proofs.«111726_j9053791060273_2_alg».proof.Proof.Gen.KernelIdeal.Frame
import Idealize.ShloMosaic.Lib.StableHlo.Run

noncomputable section

namespace Cert.ExpAffine

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The first array the tiles are cut from is the transposed input. -/
theorem entry_xt (c : Dev nD) :
    (V m c main_v0 : S512x2048.Idx → Elt F .f32)
      = transpose S512x2048 [1, 0] (m ((c : Thread nD τ).loc main_arg0)) transposes_S2048x512_S512x2048_1_0 := by
  show StableHlo.after hostOps0 (fun b => m (c, b)) (Proc.devRef .tc main_v0) = _
  after_results <;> rfl

/-- The second is the exponential of w, entry by entry. -/
theorem entry_exp (c : Dev nD) :
    (V m c main_v1 : S512x128.Idx → Elt F .f32) = Host.exp (m ((c : Thread nD τ).loc main_arg1)) := by
  show StableHlo.after hostOps0 (fun b => m (c, b)) (Proc.devRef .tc main_v1) = _
  after_results <;> rfl

end Cert.ExpAffine

end
-- ==== Proof.LibUnitAxes.lean ====
/-
  A unit axis of a two- or three-axis array, read at an entry.

  A cast that adds a unit axis does not move any entry: an [a, b] array seen as [a, b, 1] reads at (p, q, 0) its entry
  (p, q); seen as [a, 1, b] it reads at (p, 0, q) its entry (p, q); an [a] array seen as [a, 1] reads at (p, 0) its
  entry p.  A broadcast along a unit axis repeats the one entry there: an [a, b, 1] array repeated to [a, b, c] reads at
  (p, q, r) its entry (p, q, 0); an [a, 1, c] array repeated to [a, b, c] reads at (p, q, r) its entry (p, 0, r); an
  [a, 1] array repeated to [a, b] reads at (p, q) its entry (p, 0).  And a vector of c entries seen as [1, 1, c] and
  repeated to [a, b, c] reads at (p, q, r) its entry r.
-/
import Idealize.ShloMosaic.Lib.ValueIdx
import Idealize.ShloMosaic.Lib.Pipeline.Value

noncomputable section

namespace Cert.UnitAxes

open Idealize.ShloMosaic Idealize.ShloMosaic.ValueIdx

variable {α : Type}

/-- [a, b] seen as [a, b, 1]: at (p, q, 0) the entry (p, q). -/
theorem cast_last_apply {a b : ℕ} (v : (⟨2, ![a, b]⟩ : Shape).Idx → α)
    (h : (⟨2, ![a, b]⟩ : Shape).ShapeCasts ⟨3, ![a, b, 1]⟩) (p : Fin a) (q : Fin b) :
    shapeCast ⟨3, ![a, b, 1]⟩ v h (ix3 p q (0 : Fin 1)) = v (ix2 p q) := by
  refine shapeCast_apply v h (ix3 p q (0 : Fin 1)) (ix2 p q) ?_
  rw [Shape.rowMajor_val_two, Shape.rowMajor_val_three]
  show p.val * b + q.val = (p.val * b + q.val) * 1 + 0
  omega

/-- [a, c] seen as [a, 1, c]: at (p, 0, r) the entry (p, r). -/
theorem cast_mid_apply {a c : ℕ} (v : (⟨2, ![a, c]⟩ : Shape).Idx → α)
    (h : (⟨2, ![a, c]⟩ : Shape).ShapeCasts ⟨3, ![a, 1, c]⟩) (p : Fin a) (r : Fin c) :
    shapeCast ⟨3, ![a, 1, c]⟩ v h (ix3 p (0 : Fin 1) r) = v (ix2 p r) := by
  refine shapeCast_apply v h (ix3 p (0 : Fin 1) r) (ix2 p r) ?_
  rw [Shape.rowMajor_val_two, Shape.rowMajor_val_three]
  show p.val * c + r.val = (p.val * 1 + 0) * c + r.val
  rw [Nat.mul_one, Nat.add_zero]

/-- [a] seen as [a, 1]: at (p, 0) the entry p. -/
theorem cast_col_apply {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_one, Shape.rowMajor_val_two]
    show p.val = p.val * 1 + 0
    omega)

/-- [a, b, 1] repeated to [a, b, c]: at (p, q, r) the entry (p, q, 0). -/
theorem repeat_last_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, c] repeated to [a, b, c]: at (p, q, r) the entry (p, 0, r). -/
theorem repeat_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [a, 1] repeated to [a, b]: at (p, q) the entry (p, 0). -/
theorem repeat_col_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of c entries seen as [1, 1, c] and repeated to [a, b, c]: at (p, q, r) the entry r. -/
theorem vector_repeated_apply {a b c : ℕ} (v : (⟨1, ![c]⟩ : Shape).Idx → α)
    (h1 : (⟨1, ![c]⟩ : Shape).ShapeCasts ⟨3, ![1, 1, c]⟩)
    (h2 : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ v h1) h2 (ix3 p q r) = v (ix1 r) := by
  refine (broadcastTo_apply _ h2 (ix3 p q r) (ix3 (0 : Fin 1) (0 : Fin 1) r) fun ax => ?_).trans ?_
  · match ax with
    | ⟨0, _⟩ => rfl
    | ⟨1, _⟩ => rfl
    | ⟨2, _⟩ =>
      show r.val = if c = 1 then 0 else r.val
      split
      · have := r.isLt; omega
      · rfl
  · refine shapeCast_apply v h1 (ix3 (0 : Fin 1) (0 : Fin 1) r) (ix1 r) ?_
    rw [Shape.rowMajor_val_one, Shape.rowMajor_val_three]
    show r.val = (0 * 1 + 0) * c + r.val
    omega

end Cert.UnitAxes

end
-- ==== Proof.BodyEntry.lean ====
/-
  One tile of the computation, read at an entry.

  The body takes a 128 × 128 tile a of the transposed input and 128 × 128 tiles e, β of the two tables.  It views a as
  128 × 128 × 1 and repeats it along the last axis, views e and β as 128 × 1 × 128 and repeats them along the middle
  axis, multiplies and adds.  At (p, q, r) the result is therefore a[p, q] · e[p, r] + β[p, r].
-/
import proofs.«111726_j9053791060273_2_alg».proof.Proof.Gen.KernelIdeal.Skeleton
import proofs.«111726_j9053791060273_2_alg».proof.Proof.LibUnitAxes
import proofs.«111726_j9053791060273_2_alg».proof.Proof.Spec

noncomputable section

namespace Cert.ExpAffine

open Idealize.ShloMosaic Idealize.ShloMosaic.ValueIdx Cert.KernelIdeal Cert.KernelIdeal.Gen

variable {F : FTy → Type} [FloatOps F]

/-- The tile's result at (p, q, r) is a[p, q] · e[p, r] + β[p, r]. -/
theorem tile_apply (a e β : Vec F S128x128 .f32) (p q r : Fin 128) :
    k0_pay1 (F := F) a e β (ix3 p q r) = affine (a (ix2 p q)) (e (ix2 p r)) (β (ix2 p r)) := by
  unfold k0_pay1
  have ha : broadcastTo S128x128x128 (shapeCast S128x128x1 (shapeCast S128x128 a shapeCasts_S128x128_S128x128)
      shapeCasts_S128x128_S128x128x1) broadcasts_S128x128x1_S128x128x128 (ix3 p q r) = a (ix2 p q) := by
    rw [Cert.UnitAxes.repeat_last_apply, Cert.UnitAxes.cast_last_apply, shapeCast_self]
  have he : broadcastTo S128x128x128 (shapeCast S128x1x128 (shapeCast S128x128 e shapeCasts_S128x128_S128x128)
      shapeCasts_S128x128_S128x1x128) broadcasts_S128x1x128_S128x128x128 (ix3 p q r) = e (ix2 p r) := by
    rw [Cert.UnitAxes.repeat_mid_apply, Cert.UnitAxes.cast_mid_apply, shapeCast_self]
  have hβ : broadcastTo S128x128x128 (shapeCast S128x1x128 β shapeCasts_S128x128_S128x1x128)
      broadcasts_S128x1x128_S128x128x128 (ix3 p q r) = β (ix2 p r) := by
    rw [Cert.UnitAxes.repeat_mid_apply, Cert.UnitAxes.cast_mid_apply]
  show FloatOps.addf (FloatOps.mulf
      (broadcastTo S128x128x128 (shapeCast S128x128x1 (shapeCast S128x128 a shapeCasts_S128x128_S128x128)
        shapeCasts_S128x128_S128x128x1) broadcasts_S128x128x1_S128x128x128 (ix3 p q r))
      (broadcastTo S128x128x128 (shapeCast S128x1x128 (shapeCast S128x128 e shapeCasts_S128x128_S128x128)
        shapeCasts_S128x128_S128x1x128) broadcasts_S128x1x128_S128x128x128 (ix3 p q r)))
      (broadcastTo S128x128x128 (shapeCast S128x1x128 β shapeCasts_S128x128_S128x1x128)
        broadcasts_S128x1x128_S128x128x128 (ix3 p q r)) = _
  rw [ha, he, hβ]
  rfl

/-- The same at any index of the tile, split into its three coordinates. -/
theorem tile_apply_idx (a e β : Vec F S128x128 .f32) (y : S128x128x128.Idx) :
    k0_pay1 (F := F) a e β y = affine (a (ix2 (n0 := 128) (n1 := 128) (y 0) (y 1)))
      (e (ix2 (n0 := 128) (n1 := 128) (y 0) (y 2))) (β (ix2 (n0 := 128) (n1 := 128) (y 0) (y 2))) := by
  obtain ⟨p, q, r, rfl⟩ : ∃ (p q r : Fin 128), y = ix3 p q r := ⟨y 0, y 1, y 2, eq_ix3 y⟩
  exact tile_apply a e β p q r

end Cert.ExpAffine

end
-- ==== Proof.Blocks.lean ====
/-
  From tiles to the whole three-axis array.

  The 512 × 2048 × 128 result is cut into 4 × 16 tiles of 128 × 128 × 128: tile (g, h) holds the entries (i, b, o) with
  i in block g of the rows and b in block h of the batch, all o.  The tile is computed from block (g, h) of the
  transposed input and block g of the rows of the two tables.  An entry (p, q, r) of tile (g, h) is the entry
  (128 g + p, 128 h + q, r) of the result, and it reads the transposed input at (128 g + p, 128 h + q) and the tables
  at (128 g + p, r): exactly the positions the whole-array formula `K` names.  Since every (i, b, o) lies in the tile
  (i / 128, b / 128), the tiles cover the array, and the array is `K` of the three operands.
-/
import proofs.«111726_j9053791060273_2_alg».proof.Proof.Gen.KernelIdeal.Frame
import Idealize.ShloMosaic.Lib.Pipeline.Value
import proofs.«111726_j9053791060273_2_alg».proof.Proof.Spec
import proofs.«111726_j9053791060273_2_alg».proof.Proof.BodyEntry

set_option maxRecDepth 16384

noncomputable section

namespace Cert.ExpAffine

open Idealize.ShloMosaic Idealize.ShloMosaic.TcCoe Idealize.ShloMosaic.ValueIdx Idealize.SL.Sem
open Cert.KernelIdeal Cert.KernelIdeal.Gen
open Idealize.ShloMosaic.Pipeline (Dat)

variable {F : FTy → Type} [FloatOps F]
variable (m : (ℓ : Loc nD τ sig) → Buf (Elt F) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- Which blocks a tile uses: the input's block has the tile's two leading block numbers; each table's block has the
    tile's row-block number and is the only block along the columns; the tile is the only block along its last axis;
    and the block numbers stay below 4 and 16. -/
theorem block_numbers : ∀ t : Fin cfg0.N,
    win0_0.index t (0 : Fin 2) = win0_3.index t (0 : Fin 3)
    ∧ win0_0.index t (1 : Fin 2) = win0_3.index t (1 : Fin 3)
    ∧ win0_1.index t (0 : Fin 2) = win0_3.index t (0 : Fin 3)
    ∧ win0_1.index t (1 : Fin 2) = 0
    ∧ win0_2.index t (0 : Fin 2) = win0_3.index t (0 : Fin 3)
    ∧ win0_2.index t (1 : Fin 2) = 0
    ∧ win0_3.index t (2 : Fin 3) = 0
    ∧ win0_3.index t (0 : Fin 3) ≤ 3
    ∧ win0_3.index t (1 : Fin 3) ≤ 15 :=
  (by decide +kernel : ∀ t : Fin grid0.N, _)

/-- Every pair of block numbers is some tile's. -/
theorem every_block : ∀ (g : Fin 4) (h : Fin 16), ∃ t : Fin cfg0.N, win0_3.index t = ![g.val, h.val, 0] :=
  (by decide +kernel : ∀ (g : Fin 4) (h : Fin 16), ∃ t : Fin grid0.N, win0_3.index t = ![g.val, h.val, 0])

/-- What a tile writes back is its block of `K` of the three operands. -/
theorem flushed_eq (c : Dev nD) (t : Fin cfg0.N) :
    (dats m 0 c).flushed 3 t
      = ((cfg0.win 3).blk t).view.read (Elt F) (K (F := F) (V m c main_v0) (V m c main_v1) (V m c main_arg2)) := by
  show (cfg0.win 3).cut (grid0.coords t) ((dats m 0 c).after 3 t) = _
  rw [after0_3]
  unfold out0_3
  rw [View.canon_unit_zero zeros3]
  simp only [View.ld_unit_zero (S := S128x128) zeros2]
  obtain ⟨e0, e1, e2, e3, e4, e5, e6, -, -⟩ := block_numbers t
  funext y
  refine (tile_apply_idx (F := F) (iblk m c 0 t) (iblk m c 1 t) (iblk m c 2 t) y).trans ?_
  show affine (V m c main_v0 (((cfg0.win 0).blk t).view.emb (ix2 (n0 := 128) (n1 := 128) (y 0) (y 1))))
      (V m c main_v1 (((cfg0.win 1).blk t).view.emb (ix2 (n0 := 128) (n1 := 128) (y 0) (y 2))))
      (V m c main_arg2 (((cfg0.win 2).blk t).view.emb (ix2 (n0 := 128) (n1 := 128) (y 0) (y 2))))
    = affine (V m c main_v0 (ix2 (n0 := 512) (n1 := 2048) ((((cfg0.win 3).blk t).view.emb y) 0) ((((cfg0.win 3).blk t).view.emb y) 1)))
      (V m c main_v1 (ix2 (n0 := 512) (n1 := 128) ((((cfg0.win 3).blk t).view.emb y) 0) ((((cfg0.win 3).blk t).view.emb y) 2)))
      (V m c main_arg2 (ix2 (n0 := 512) (n1 := 128) ((((cfg0.win 3).blk t).view.emb y) 0) ((((cfg0.win 3).blk t).view.emb y) 2)))
  have h0 : ((cfg0.win 0).blk t).view.emb (ix2 (n0 := 128) (n1 := 128) (y 0) (y 1))
      = ix2 (n0 := 512) (n1 := 2048) ((((cfg0.win 3).blk t).view.emb y) 0) ((((cfg0.win 3).blk t).view.emb y) 1) := by
    funext a; apply Fin.ext
    match a with
    | ⟨0, _⟩ => show win0_0.index t (0 : Fin 2) * 128 + 1 * (y 0).val = win0_3.index t (0 : Fin 3) * 128 + 1 * (y 0).val; omega
    | ⟨1, _⟩ => show win0_0.index t (1 : Fin 2) * 128 + 1 * (y 1).val = win0_3.index t (1 : Fin 3) * 128 + 1 * (y 1).val; omega
  have h1 : ((cfg0.win 1).blk t).view.emb (ix2 (n0 := 128) (n1 := 128) (y 0) (y 2))
      = ix2 (n0 := 512) (n1 := 128) ((((cfg0.win 3).blk t).view.emb y) 0) ((((cfg0.win 3).blk t).view.emb y) 2) := by
    funext a; apply Fin.ext
    match a with
    | ⟨0, _⟩ => show win0_1.index t (0 : Fin 2) * 128 + 1 * (y 0).val = win0_3.index t (0 : Fin 3) * 128 + 1 * (y 0).val; omega
    | ⟨1, _⟩ => show win0_1.index t (1 : Fin 2) * 128 + 1 * (y 2).val = win0_3.index t (2 : Fin 3) * 128 + 1 * (y 2).val; omega
  have h2 : ((cfg0.win 2).blk t).view.emb (ix2 (n0 := 128) (n1 := 128) (y 0) (y 2))
      = ix2 (n0 := 512) (n1 := 128) ((((cfg0.win 3).blk t).view.emb y) 0) ((((cfg0.win 3).blk t).view.emb y) 2) := by
    funext a; apply Fin.ext
    match a with
    | ⟨0, _⟩ => show win0_2.index t (0 : Fin 2) * 128 + 1 * (y 0).val = win0_3.index t (0 : Fin 3) * 128 + 1 * (y 0).val; omega
    | ⟨1, _⟩ => show win0_2.index t (1 : Fin 2) * 128 + 1 * (y 2).val = win0_3.index t (2 : Fin 3) * 128 + 1 * (y 2).val; omega
  rw [h0, h1, h2]

/-- An entry of the array is in a tile iff each of its coordinates is in the tile's range on that axis. -/
theorem mem_tile (t : Fin cfg0.N) (i : S512x2048x128.Idx) :
    i ∈ ((cfg0.win 3).blk t).view.set ↔ ∀ a : Fin 3, win0_3.index t a * S128x128x128.size a ≤ (i a).val
      ∧ (i a).val < win0_3.index t a * S128x128x128.size a + S128x128x128.size a := by
  show i ∈ ((View.whole main_v2).slice (win0_3.rect t)).set ↔ _
  rw [View.set_slice_whole, Rect.mem_set_unit]
  exact Iff.rfl

/-- Every entry (i, b, o) lies in the tile (i / 128, b / 128), and that tile is written back. -/
theorem tiles_cover (i : S512x2048x128.Idx) :
    ∃ t : Fin cfg0.N, (cfg0.win 3).flush t = true ∧ i ∈ ((cfg0.win 3).blk t).view.set := by
  have hi0 : (i 0).val < 512 := (i 0).isLt
  have hi1 : (i 1).val < 2048 := (i 1).isLt
  have hi2 : (i 2).val < 128 := (i 2).isLt
  obtain ⟨t, ht⟩ := every_block ⟨(i 0).val / 128, by omega⟩ ⟨(i 1).val / 128, by omega⟩
  have q0 : win0_3.index t (0 : Fin 3) = (i 0).val / 128 := congrFun ht 0
  have q1 : win0_3.index t (1 : Fin 3) = (i 1).val / 128 := congrFun ht 1
  have q2 : win0_3.index t (2 : Fin 3) = 0 := congrFun ht 2
  refine ⟨t, flush0_3 t, ?_⟩
  rw [mem_tile]
  intro a
  match a with
  | ⟨0, _⟩ => show win0_3.index t (0 : Fin 3) * 128 ≤ (i 0).val ∧ (i 0).val < win0_3.index t (0 : Fin 3) * 128 + 128; omega
  | ⟨1, _⟩ => show win0_3.index t (1 : Fin 3) * 128 ≤ (i 1).val ∧ (i 1).val < win0_3.index t (1 : Fin 3) * 128 + 128; omega
  | ⟨2, _⟩ => show win0_3.index t (2 : Fin 3) * 128 ≤ (i 2).val ∧ (i 2).val < win0_3.index t (2 : Fin 3) * 128 + 128; omega

/-- After all tiles are written back the three-axis array is `K` of the three operands. -/
theorem array_eq_K (c : Dev nD) :
    (dats m 0 c).arrAt 3 cfg0.N = K (F := F) (V m c main_v0) (V m c main_v1) (V m c main_arg2) :=
  (dats m 0 c).arrAt_eq_of_cover 3 _ (fun t _ => flushed_eq m c t) tiles_cover

end Cert.ExpAffine

end
-- ==== Proof.KernelRun.lean ====
/-
  The tiled program's result.

  The three-axis array the tiles leave is `G` of the arguments (the tiles cover it; the operands the tiles are cut from
  are the transposed input and the exponential of w).  The program's last step merges the two trailing axes of that
  array, 512 × 2048 × 128 into 512 × 262144, without moving an entry; so its result is that merge of `G`, and its three
  arguments are left as they were.
-/
import proofs.«111726_j9053791060273_2_alg».proof.Proof.Gen.KernelIdeal.Frame
import Idealize.ShloMosaic.Lib.StableHlo.Run
import proofs.«111726_j9053791060273_2_alg».proof.Proof.Spec
import proofs.«111726_j9053791060273_2_alg».proof.Proof.Prefix
import proofs.«111726_j9053791060273_2_alg».proof.Proof.Blocks

noncomputable section

namespace Cert.ExpAffine

open Idealize.ShloMosaic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- After all tiles are written back the three-axis array is `G` of the program's arguments. -/
theorem array_eq_G (c : Dev nD) :
    (dats m 0 c).arrAt 3 cfg0.N = G (F := F) (m ((c : Thread nD τ).loc main_arg0)) (m ((c : Thread nD τ).loc main_arg1))
      (m ((c : Thread nD τ).loc main_arg2)) := by
  rw [array_eq_K, entry_xt, entry_exp, V_main_arg2]
  exact K_eq_G _ _ _ _

/-- The program's result is the merge of the two trailing axes of `G`. -/
theorem result_eq (c : Dev nD) :
    Pipeline.afterTail₀ cfgs (dats m) 0 (V0 m) [hostOps1] c main_v3
      = shapeCast S512x262144 (G (F := F) (m ((c : Thread nD τ).loc main_arg0)) (m ((c : Thread nD τ).loc main_arg1))
          (m ((c : Thread nD τ).loc main_arg2))) shapeCasts_S512x2048x128_S512x262144 := by
  unfold Pipeline.afterTail₀
  show StableHlo.after hostOps1 _ (Proc.devRef .tc main_v3) = _
  after_results
  exact congrArg (fun z => shapeCast S512x262144 z shapeCasts_S512x2048x128_S512x262144)
    ((Pipeline.withArrays_arr spec0 launch0.win.arr_inj c _ _ 3).trans (array_eq_G m c))

/-- Every weakly fair execution of the tiled program terminates with its result at the merge of `G` of the arguments
    and the arguments unchanged. -/
theorem run : θ_run defs (onTc (τ := τ) (main (F := F))) ⟨m, fun _ => 0, ρ⟩ fun r => ∀ c : Dev nD,
      r.2.mem ((c : Thread nD τ).loc main_v3)
        = shapeCast S512x262144 (G (F := F) (m ((c : Thread nD τ).loc main_arg0)) (m ((c : Thread nD τ).loc main_arg1))
            (m ((c : Thread nD τ).loc main_arg2))) shapeCasts_S512x2048x128_S512x262144
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 2).trans (((dats m 0 c).arrAt_in 2 rfl _).trans ((A_eq m c 2).trans (V_main_arg2 m c)))⟩)
    (run_main m ρ)

end Cert.ExpAffine

end
-- ==== Proof.lean ====
/-
  Two computations of  out[i, b · 128 + o] = x[b, i] · exp(w[i, o]) + β[i, o]  are the same function.

  x has 2048 rows (the batch, b) and 512 columns (i); w and β have 512 rows (i) and 128 columns (o); the result has 512
  rows and 2048 · 128 columns.  The direct computation repeats x, exp(w) and β to a common (b, i, o) array, multiplies
  and adds, exchanges the first two axes and merges the last two.  The tiled computation first transposes x and takes
  exp(w), then fills a 512 × 2048 × 128 array tile by tile — 4 × 16 tiles of 128 × 128 × 128, the tile (g, h) computed
  from block (g, h) of the transposed input and row-block g of exp(w) and β — and merges the last two axes.

  Both produce, before the merge, the array whose (i, b, o) entry is x[b, i] · exp(w[i, o]) + β[i, o] (`ExpAffine.G`):
  the direct one by reading its repetitions and the exchange at an index, the tiled one because each tile is the
  restriction of that array to its block and the blocks cover it.  The merge is the same operation on both sides.  The
  product and the sum are taken in the same order on both sides, so the equality needs no property of the numbers —
  in particular not that the inputs are finite.

  Read over the exact extended reals the tiled program is its own text, no operation replaced, so the conjunct relating
  the two readings is trivial; each program runs to completion without touching its arguments.
-/
import proofs.«111726_j9053791060273_2_alg».proof.Defs
import proofs.«111726_j9053791060273_2_alg».proof.Proof.Gen.Kernel
import proofs.«111726_j9053791060273_2_alg».proof.Proof.Gen.Kernel.Skeleton
import proofs.«111726_j9053791060273_2_alg».proof.Proof.Gen.Kernel.Launch
import proofs.«111726_j9053791060273_2_alg».proof.Proof.Gen.Kernel.Points
import proofs.«111726_j9053791060273_2_alg».proof.Proof.Gen.Kernel.Frame
import proofs.«111726_j9053791060273_2_alg».proof.Proof.Gen.KernelIdeal
import proofs.«111726_j9053791060273_2_alg».proof.Proof.Gen.KernelIdeal.Skeleton
import proofs.«111726_j9053791060273_2_alg».proof.Proof.Gen.KernelIdeal.Launch
import proofs.«111726_j9053791060273_2_alg».proof.Proof.Gen.KernelIdeal.Points
import proofs.«111726_j9053791060273_2_alg».proof.Proof.Gen.KernelIdeal.Frame
import proofs.«111726_j9053791060273_2_alg».proof.Proof.Gen.ReferenceIdeal
import proofs.«111726_j9053791060273_2_alg».proof.Proof.Gen.Pre_finite_inputs
import proofs.«111726_j9053791060273_2_alg».proof.Proof.Gen.ReferenceIdeal.Run
import proofs.«111726_j9053791060273_2_alg».proof.Proof.Gen.ReferenceIdeal.Read
import proofs.«111726_j9053791060273_2_alg».proof.Proof.RefEntry
import proofs.«111726_j9053791060273_2_alg».proof.Proof.KernelRun
import Idealize.ShloMosaic.Adequacy
import Idealize.ShloMosaic.Init

noncomputable section

namespace Cert.Proof

open Idealize.ShloMosaic Idealize.SL.Sem

/-- The direct computation runs to completion and leaves its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x, w and β both computations end with the merge of `G` of those arguments. -/
theorem algebraic : Cert.algebraic_KernelIdeal_ReferenceIdeal := by
  intro m ρ m' ρ' _ hagree
  refine ⟨_, Cert.ExpAffine.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v10_eq (F := Ideal) _ _ _).trans ?_
  exact congrArg (fun z => shapeCast Cert.ReferenceIdeal.S512x262144 z Cert.ReferenceIdeal.Facts₀.shapeCasts_S512x2048x128_S512x262144)
    (Cert.ExpAffine.reference_eq_G (F := Ideal) _ _ _)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
